-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x64 .f32) (main_arg6 : FVec F S128x64 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64x128 .f32) (main_arg4 : FVec F S64 .f32) (main_arg5 : FVec F S128x64 .f32) (main_arg6 : FVec F S128x64 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x128 : Shape := ⟨2, ![1, 128]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x64, .f32⟩
  | .hbm, ⟨39, _⟩ => ⟨S128x64, .bf16⟩
  | .hbm, ⟨40, _⟩ => ⟨S128x64, .f32⟩
  | .hbm, ⟨41, _⟩ => ⟨S128x64, .bf16⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S64x128, .f32⟩
  | .hbm, ⟨58, _⟩ => ⟨S64x128, .bf16⟩
  | .hbm, ⟨59, _⟩ => ⟨S64x128, .f32⟩
  | .hbm, ⟨60, _⟩ => ⟨S64x128, .bf16⟩
  | .hbm, ⟨61, _⟩ => ⟨S1x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x64, .bf16⟩
  | .local _ .vmem, ⟨7, _⟩ => ⟨S128x64, .bf16⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x128, .bf16⟩
  | .local _ .vmem, ⟨18, _⟩ => ⟨S64x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S64x128_S128x64_1_0 : S64x128.Transposes [1, 0] S128x64
  bitsLt_bf16_f32 : FTy.bits .bf16 < FTy.bits .f32
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  shapeCasts_S5000x64_S5000x64 : S5000x64.ShapeCasts S5000x64
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S128x64 : Shape := ⟨2, ![128, 64]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S64, .f32⟩
  | .hbm, ⟨5, _⟩ => ⟨S128x64, .f32⟩
  | .hbm, ⟨6, _⟩ => ⟨S128x64, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S64x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The idealized kernel's run with its result named.  Every weakly fair execution of the program ends, nothing
  faulting, with every buffer that is not scoped to a call holding the contents obtained by folding the program's
  segments over the launch memory: the host operations before the first call, the first call's write-backs, the host
  operations between the calls, the second call's write-backs.  In particular the result buffer ends at that fold's
  contents, and the arguments end as launched.
-/
import proofs.«140511_j28621662060925_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents, the arguments as launched. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueRun

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibSageLayer.lean ====
/-
  One layer of a mean-aggregating graph network on the extended reals, as a function of whole arrays.

  For node r and output feature q the layer is
      act( Σ_j (s(r, j) / max(deg r, 1)) · wl(q, j)  +  b(q)  +  Σ_j x(r, j) · wr(q, j) )
  where s(r, ·) is the sum of the features of r's in-neighbours, deg r their number, x(r, ·) the node's own features,
  wl and wr the two weight matrices (stored output-feature-major) and b the bias.

  Two spellings of it are read here, at an entry, and shown to be this one function:
    • the matrix unit's: the neighbour sum is first scaled by the reciprocal 1 / max(deg, 1) held as a column, both
      products are accumulated from zero against the transposed weights, added to each other, then to the bias row;
    • the host's: the neighbour sum is divided by max(deg, 1) spread over the columns, multiplied against the transposed
      weights, the bias row is added, then the node's own product.
  They differ by x · (1 / d) against x / d, which agree for every extended real x as soon as d ≠ 0 (and max(deg, 1) ≥ 1),
  and by the order of three summands.  No finiteness is needed.

  A layer is row-local: the rows of a block of nodes are the rows of the whole array's layer (`mxuLayer_rows`).
-/
import proofs.«140511_j28621662060925_2_alg».proof.Proof.LibDense
import proofs.«140511_j28621662060925_2_alg».proof.Proof.LibKeepdims
import proofs.«140511_j28621662060925_2_alg».proof.Proof.LibIndexNorm
import Idealize.ShloMosaic.Lib.ValueLayout
import Idealize.ShloMosaic.Lib.IdealHost

noncomputable section

namespace Cert.Lib.SageLayer

open Idealize.ShloMosaic Idealize.ShloMosaic.ValueIdx Cert.Lib.Dense
open scoped BigOperators

/-- Multiplying by the reciprocal of a divisor that is not zero is dividing by it, on every extended real. -/
theorem mul_one_div (x d : EReal) (hd : d ≠ 0) : x * Ideal.div 1 d = Ideal.div x d := by
  unfold Ideal.div
  rw [if_neg hd, if_neg hd, one_mul]

/-- A degree clamped below by one is not zero. -/
theorem max_one_ne_zero (a : EReal) : max a 1 ≠ 0 :=
  (lt_of_lt_of_le zero_lt_one (le_max_right a 1)).ne'

section Layer

variable {M K N : ℕ}

/-- The neighbour sum divided, row by row, by the clamped degree. -/
def meanRows (s : (⟨2, ![M, K]⟩ : Shape).Idx → EReal) (deg : (⟨1, ![M]⟩ : Shape).Idx → EReal) :
    (⟨2, ![M, K]⟩ : Shape).Idx → EReal :=
  fun j => Ideal.div (s j) (max (deg (ix1 (j 0))) 1)

/-- A weight matrix read with its two coordinates exchanged. -/
def flip (w : (⟨2, ![N, K]⟩ : Shape).Idx → EReal) : (⟨2, ![K, N]⟩ : Shape).Idx → EReal :=
  fun j => w (ix2 (j 1) (j 0))

/-- THE LAYER as one function of whole arrays. -/
def sage (act : EReal → EReal) (s x : (⟨2, ![M, K]⟩ : Shape).Idx → EReal) (deg : (⟨1, ![M]⟩ : Shape).Idx → EReal)
    (wl wr : (⟨2, ![N, K]⟩ : Shape).Idx → EReal) (b : (⟨1, ![N]⟩ : Shape).Idx → EReal) :
    (⟨2, ![M, N]⟩ : Shape).Idx → EReal :=
  fun i => act ((rowDot (meanRows s deg) (flip wl) (i 0) (i 1) + b (ix1 (i 1))) + rowDot x (flip wr) (i 0) (i 1))

theorem sage_ix2 (act : EReal → EReal) (s x : (⟨2, ![M, K]⟩ : Shape).Idx → EReal) (deg : (⟨1, ![M]⟩ : Shape).Idx → EReal)
    (wl wr : (⟨2, ![N, K]⟩ : Shape).Idx → EReal) (b : (⟨1, ![N]⟩ : Shape).Idx → EReal) (p : Fin M) (q : Fin N) :
    sage act s x deg wl wr b (ix2 p q)
      = act ((rowDot (meanRows s deg) (flip wl) p q + b (ix1 q)) + rowDot x (flip wr) p q) := rfl

/-- The neighbour sum scaled, row by row, by a column of factors. -/
def scaled (s : (⟨2, ![M, K]⟩ : Shape).Idx → EReal) (inv : (⟨2, ![M, 1]⟩ : Shape).Idx → EReal) :
    (⟨2, ![M, K]⟩ : Shape).Idx → EReal :=
  fun j => s j * inv (ix2 (j 0) (0 : Fin 1))

/-- The layer as the matrix unit computes it: scaled neighbour sum against `wl`, the node's features against `wr`
    (both weight matrices already input-feature-major), the two products added, then the bias row. -/
def mxuLayer (act : EReal → EReal) (s x : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) :
    (⟨2, ![M, N]⟩ : Shape).Idx → EReal :=
  fun i => act ((rowDot (scaled s inv) wl (i 0) (i 1) + rowDot x wr (i 0) (i 1)) + b (ix2 (0 : Fin 1) (i 1)))

theorem mxuLayer_ix2 (act : EReal → EReal) (s x : (⟨2, ![M, K]⟩ : Shape).Idx → EReal) (inv : (⟨2, ![M, 1]⟩ : Shape).Idx → EReal)
    (wl wr : (⟨2, ![K, N]⟩ : Shape).Idx → EReal) (b : (⟨2, ![1, N]⟩ : Shape).Idx → EReal) (p : Fin M) (q : Fin N) :
    mxuLayer act s x inv wl wr b (ix2 p q)
      = act ((rowDot (scaled s inv) wl p q + rowDot x wr p q) + b (ix2 (0 : Fin 1) q)) := rfl

/-- ROW-LOCAL: if row `p` of a block of nodes is row `r` of the whole arrays, and the block is handed the same
    weights and bias, the block's layer at `(p, q)` is the whole arrays' layer at `(r, q)`. -/
theorem mxuLayer_rows {m : ℕ} (act : EReal → EReal)
    (sb xb : (⟨2, ![m, K]⟩ : Shape).Idx → EReal) (invb : (⟨2, ![m, 1]⟩ : Shape).Idx → EReal)
    (wlb wrb : (⟨2, ![K, N]⟩ : Shape).Idx → EReal) (bb : (⟨2, ![1, N]⟩ : Shape).Idx → EReal)
    (S X : (⟨2, ![M, K]⟩ : Shape).Idx → EReal) (INV : (⟨2, ![M, 1]⟩ : Shape).Idx → EReal)
    (wl wr : (⟨2, ![K, N]⟩ : Shape).Idx → EReal) (b : (⟨2, ![1, N]⟩ : Shape).Idx → EReal)
    (p : Fin m) (r : Fin M) (q : Fin N)
    (hs : ∀ k : Fin K, sb (ix2 p k) = S (ix2 r k)) (hx : ∀ k : Fin K, xb (ix2 p k) = X (ix2 r k))
    (hi : invb (ix2 p (0 : Fin 1)) = INV (ix2 r (0 : Fin 1)))
    (hwl : ∀ k : Fin K, wlb (ix2 k q) = wl (ix2 k q)) (hwr : ∀ k : Fin K, wrb (ix2 k q) = wr (ix2 k q))
    (hb : bb (ix2 (0 : Fin 1) q) = b (ix2 (0 : Fin 1) q)) :
    mxuLayer act sb xb invb wlb wrb bb (ix2 p q) = mxuLayer act S X INV wl wr b (ix2 r q) := by
  rw [mxuLayer_ix2, mxuLayer_ix2]
  have e1 : rowDot (scaled sb invb) wlb p q = rowDot (scaled S INV) wl r q :=
    Finset.sum_congr rfl fun k _ => by
      show sb (ix2 p k) * invb (ix2 p (0 : Fin 1)) * wlb (ix2 k q) = S (ix2 r k) * INV (ix2 r (0 : Fin 1)) * wl (ix2 k q)
      rw [hs k, hi, hwl k]
  have e2 : rowDot xb wrb p q = rowDot X wr r q :=
    Finset.sum_congr rfl fun k _ => by rw [hx k, hwr k]
  rw [e1, e2, hb]

end Layer

/-- The activation of the first layer: the positive part. -/
def relu (z : EReal) : EReal := max z 0

section Bridges

variable {M K N : ℕ}

/-- THE MATRIX UNIT'S SPELLING IS THE LAYER. Handed the column of reciprocals `1 / max(deg, 1)`, the two weight
    matrices transposed and narrowed, and the bias as a row, the matrix unit's form computes the layer: the factor
    `1 / d` times the neighbour sum is the quotient by `d` because `d = max(deg, 1)` is not zero, and the three summands
    are added in another order. -/
theorem mxuLayer_sage (act : EReal → EReal) (s x : FVec Ideal ⟨2, ![M, K]⟩ .f32) (deg one : FVec Ideal ⟨1, ![M]⟩ .f32)
    (hone : ∀ i, one i = 1) (wl wr : FVec Ideal ⟨2, ![N, K]⟩ .f32) (b : FVec Ideal ⟨1, ![N]⟩ .f32)
    (hc : (⟨1, ![M]⟩ : Shape).ShapeCasts ⟨2, ![M, 1]⟩)
    (ht : (⟨2, ![N, K]⟩ : Shape).Transposes [1, 0] ⟨2, ![K, N]⟩)
    (hbits : FTy.bits .bf16 < FTy.bits .f32)
    (hr : (⟨1, ![N]⟩ : Shape).ShapeCasts ⟨2, ![1, N]⟩) :
    mxuLayer act s x (shapeCast ⟨2, ![M, 1]⟩ (Host.divf one (maximumf deg one)) hc)
        (truncf .bf16 (transpose ⟨2, ![K, N]⟩ [1, 0] wl ht) hbits)
        (truncf .bf16 (transpose ⟨2, ![K, N]⟩ [1, 0] wr ht) hbits)
        (shapeCast ⟨2, ![1, N]⟩ b hr)
      = sage act s x deg wl wr b := by
  funext i
  obtain ⟨p, q, rfl⟩ : ∃ (p : Fin M) (q : Fin N), i = ix2 p q := ⟨i 0, i 1, eq_ix2 i⟩
  rw [mxuLayer_ix2, sage_ix2]
  have e1 : rowDot (scaled s (shapeCast ⟨2, ![M, 1]⟩ (Host.divf one (maximumf deg one)) hc))
      (truncf .bf16 (transpose ⟨2, ![K, N]⟩ [1, 0] wl ht) hbits) p q = rowDot (meanRows s deg) (flip wl) p q :=
    Finset.sum_congr rfl fun k _ => by
      show s (ix2 p k) * shapeCast ⟨2, ![M, 1]⟩ (Host.divf one (maximumf deg one)) hc (ix2 p (0 : Fin 1))
          * transpose ⟨2, ![K, N]⟩ [1, 0] wl ht (ix2 k q)
        = Ideal.div (s (ix2 p k)) (max (deg (ix1 p)) 1) * wl (ix2 q k)
      rw [Cert.Lib.Keepdims.shapeCast_a_a1_apply, transpose_ix2_apply]
      show s (ix2 p k) * Ideal.div (one (ix1 p)) (max (deg (ix1 p)) (one (ix1 p))) * wl (ix2 q k) = _
      rw [hone, mul_one_div _ _ (max_one_ne_zero _)]
  have e2 : rowDot x (truncf .bf16 (transpose ⟨2, ![K, N]⟩ [1, 0] wr ht) hbits) p q = rowDot x (flip wr) p q :=
    Finset.sum_congr rfl fun k _ => by
      show x (ix2 p k) * transpose ⟨2, ![K, N]⟩ [1, 0] wr ht (ix2 k q) = x (ix2 p k) * wr (ix2 q k)
      rw [transpose_ix2_apply]
  have e3 : shapeCast ⟨2, ![1, N]⟩ b hr (ix2 (0 : Fin 1) q) = b (ix1 q) := shapeCast_a_1a_apply b hr 0 q
  rw [e1, e2, e3, add_right_comm]

section Host

variable (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc hrc hln hrn hlb hrb in
/-- THE HOST'S SPELLING IS THE LAYER (before the activation): the neighbour sum divided by the clamped degree spread
    over the columns, against the transposed weights, plus the bias spread over the rows, plus the node's own product. -/
theorem host_sage (s x : FVec Ideal ⟨2, ![M, K]⟩ .f32) (deg one : FVec Ideal ⟨1, ![M]⟩ .f32)
    (hone : ∀ i, one i = 1) (wl wr : FVec Ideal ⟨2, ![N, K]⟩ .f32) (b : FVec Ideal ⟨1, ![N]⟩ .f32)
    (hcol : (⟨1, ![M]⟩ : Shape).BroadcastsInDim ⟨2, ![M, 1]⟩ ![0])
    (hcols : (⟨2, ![M, 1]⟩ : Shape).BroadcastsInDim ⟨2, ![M, K]⟩ ![0, 1])
    (ht : (⟨2, ![N, K]⟩ : Shape).Transposes [1, 0] ⟨2, ![K, N]⟩)
    (hrow : (⟨1, ![N]⟩ : Shape).BroadcastsInDim ⟨2, ![1, N]⟩ ![1])
    (hrows : (⟨2, ![1, N]⟩ : Shape).BroadcastsInDim ⟨2, ![M, N]⟩ ![0, 1]) :
    addf (addf (Host.dotGeneral D none
              (Host.divf s (broadcastInDim ⟨2, ![M, K]⟩ ![0, 1] hcols (broadcastInDim ⟨2, ![M, 1]⟩ ![0] hcol (maximumf deg one))))
              (transpose ⟨2, ![K, N]⟩ [1, 0] wl ht))
            (broadcastInDim ⟨2, ![M, N]⟩ ![0, 1] hrows (broadcastInDim ⟨2, ![1, N]⟩ ![1] hrow b)))
         (Host.dotGeneral D none x (transpose ⟨2, ![K, N]⟩ [1, 0] wr ht))
      = sage id s x deg wl wr b := by
  funext i
  obtain ⟨p, q, rfl⟩ : ∃ (p : Fin M) (q : Fin N), i = ix2 p q := ⟨i 0, i 1, eq_ix2 i⟩
  rw [sage_ix2]
  show (Host.dotGeneral D none
            (Host.divf s (broadcastInDim ⟨2, ![M, K]⟩ ![0, 1] hcols (broadcastInDim ⟨2, ![M, 1]⟩ ![0] hcol (maximumf deg one))))
            (transpose ⟨2, ![K, N]⟩ [1, 0] wl ht) (ix2 p q)
          + broadcastInDim ⟨2, ![M, N]⟩ ![0, 1] hrows (broadcastInDim ⟨2, ![1, N]⟩ ![1] hrow b) (ix2 p q))
        + Host.dotGeneral D none x (transpose ⟨2, ![K, N]⟩ [1, 0] wr ht) (ix2 p q) = _
  rw [dotGeneral_at D hlc hrc hln hrn hlb hrb, dotGeneral_at D hlc hrc hln hrn hlb hrb,
    Cert.Lib.IndexNorm.bcast_row_rows_apply]
  have e1 : rowDot (Host.divf s (broadcastInDim ⟨2, ![M, K]⟩ ![0, 1] hcols (broadcastInDim ⟨2, ![M, 1]⟩ ![0] hcol (maximumf deg one))))
      (transpose ⟨2, ![K, N]⟩ [1, 0] wl ht) p q = rowDot (meanRows s deg) (flip wl) p q :=
    Finset.sum_congr rfl fun k _ => by
      show Ideal.div (s (ix2 p k)) (broadcastInDim ⟨2, ![M, K]⟩ ![0, 1] hcols (broadcastInDim ⟨2, ![M, 1]⟩ ![0] hcol (maximumf deg one)) (ix2 p k))
          * transpose ⟨2, ![K, N]⟩ [1, 0] wl ht (ix2 k q)
        = Ideal.div (s (ix2 p k)) (max (deg (ix1 p)) 1) * wl (ix2 q k)
      rw [Cert.Lib.IndexNorm.bcast_col_cols_apply, transpose_ix2_apply]
      show Ideal.div (s (ix2 p k)) (max (deg (ix1 p)) (one (ix1 p))) * wl (ix2 q k) = _
      rw [hone]
  have e2 : rowDot x (transpose ⟨2, ![K, N]⟩ [1, 0] wr ht) p q = rowDot x (flip wr) p q :=
    Finset.sum_congr rfl fun k _ => by
      show x (ix2 p k) * transpose ⟨2, ![K, N]⟩ [1, 0] wr ht (ix2 k q) = x (ix2 p k) * wr (ix2 q k)
      rw [transpose_ix2_apply]
  rw [e1, e2]
  rfl

end Host

/-- An activation applied after the layer with no activation is the layer with that activation. -/
theorem sage_act (act : EReal → EReal) (s x : (⟨2, ![M, K]⟩ : Shape).Idx → EReal) (deg : (⟨1, ![M]⟩ : Shape).Idx → EReal)
    (wl wr : (⟨2, ![N, K]⟩ : Shape).Idx → EReal) (b : (⟨1, ![N]⟩ : Shape).Idx → EReal) (i : (⟨2, ![M, N]⟩ : Shape).Idx) :
    act (sage id s x deg wl wr b i) = sage act s x deg wl wr b i := rfl

end Bridges

end Cert.Lib.SageLayer

end
-- ==== Proof.Region0.lean ====
/-
  The first pallas_call, read as a value: the array it writes is the matrix unit's form of the layer (positive part
  as activation) applied to the six arrays it is handed, whatever those arrays hold when the call is entered.

  The grid has 20 points; point t handles the 5000 nodes 5000·t … 5000·t + 4999.  Its blocks of the neighbour sum, of
  the node features and of the reciprocal-degree column are those rows of the whole arrays; the two weight matrices
  and the bias row are handed whole.  The body's one store writes the layer of the blocks, and a layer is row-local,
  so what point t writes back is rows 5000·t … of the layer of the whole arrays.  The 20 blocks tile the result.
-/
import proofs.«140511_j28621662060925_2_alg».proof.Proof.Gen.KernelIdeal.Frame
import proofs.«140511_j28621662060925_2_alg».proof.Proof.LibSageLayer
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense Cert.Lib.SageLayer

theorem hz : (![0, 0] : Fin 2 → Nat) = fun _ => 0 := funext fun a => by fin_cases a <;> rfl

/-- The body's arithmetic on a block of 5000 nodes is the matrix unit's form of the layer on that block:
    `v0` the reciprocal-degree column, `v2` the neighbour sums, `v7` the nodes' features, `v9`, `v11` the weights,
    `v16` the bias row. -/
theorem pay_eq (v0 : Vec Ideal S5000x1 .f32) (v2 v7 : Vec Ideal S5000x128 .f32) (v9 v11 : Vec Ideal S128x64 .bf16)
    (v16 : Vec Ideal S1x64 .f32) :
    k0_pay1 v0 v2 v7 v9 v11 v16 = mxuLayer relu v2 v7 v0 v9 v11 v16 := by
  funext i
  obtain ⟨p, q, rfl⟩ : ∃ (p : Fin 5000) (q : Fin 64), i = ix2 p q := ⟨i 0, i 1, eq_ix2 i⟩
  rw [mxuLayer_ix2]
  unfold k0_pay1
  simp only [shapeCast_self]
  show max ((matmul (F := Ideal) dot_S5000x128_S128x64_S5000x64_1_0_0_1_n_n none
          (truncf (F := Ideal) .bf16 (mulf (F := Ideal) v2 (broadcastTo S5000x128 v0 broadcasts_S5000x1_S5000x128)) bitsLt_bf16_f32) v9
          (constant (F := Ideal) S5000x64 .f32 0x00000000#32) (ix2 p q)
        + matmul (F := Ideal) dot_S5000x128_S128x64_S5000x64_1_0_0_1_n_n none (truncf (F := Ideal) .bf16 v7 bitsLt_bf16_f32) v11
          (constant (F := Ideal) S5000x64 .f32 0x00000000#32) (ix2 p q))
      + broadcastTo S5000x64 v16 broadcasts_S1x64_S5000x64 (ix2 p q)) (Ideal.ofBits .f32 0x00000000#32) = _
  rw [matmul_zero_at dot_S5000x128_S128x64_S5000x64_1_0_0_1_n_n rfl rfl rfl rfl rfl rfl,
    matmul_zero_at dot_S5000x128_S128x64_S5000x64_1_0_0_1_n_n rfl rfl rfl rfl rfl rfl,
    broadcastTo_1b_ab_apply, Ideal.ofBits_zero_f32]
  have e1 : rowDot (truncf (F := Ideal) .bf16 (mulf (F := Ideal) v2 (broadcastTo S5000x128 v0 broadcasts_S5000x1_S5000x128)) bitsLt_bf16_f32) v9 p q
      = rowDot (scaled v2 v0) v9 p q :=
    Finset.sum_congr rfl fun k _ => by
      show v2 (ix2 p k) * broadcastTo S5000x128 v0 broadcasts_S5000x1_S5000x128 (ix2 p k) * v9 (ix2 k q)
        = v2 (ix2 p k) * v0 (ix2 p (0 : Fin 1)) * v9 (ix2 k q)
      rw [Cert.Lib.Keepdims.broadcastTo_a1_ab_apply]
  rw [e1]
  rfl

/-- What the body leaves in the output window's buffer is the layer of the input windows' blocks. -/
theorem out_eq (x0 x1 : Vec Ideal S5000x128 .f32) (x2 : Vec Ideal S5000x1 .f32) (x3 x4 : Vec Ideal S128x64 .bf16)
    (x5 : Vec Ideal S1x64 .f32) :
    out0_6 x0 x1 x2 x3 x4 x5 = mxuLayer relu x0 x1 x2 x3 x4 x5 := by
  unfold out0_6
  rw [View.canon_unit_zero hz]
  simp only [View.ld_unit_zero (S := S5000x128) hz, View.ld_unit_zero (S := S5000x1) hz,
    View.ld_unit_zero (S := S128x64) hz, View.ld_unit_zero (S := S1x64) hz]
  exact pay_eq x2 x0 x1 x3 x4 x5

/-- The printed index maps over the grid: the three node-indexed inputs and the output move with the point along the
    rows, the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Reads

variable (V : (c : Dev nD) → (b : Ref sig .tc) → Buf (Elt Ideal) ((c : Thread nD τ).loc b))

/-- The neighbour-sum block at point `t` is rows 5000·t … of its array. -/
theorem read0 (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c (Pipeline.arrRef spec0 0) : S100000x128.Idx → EReal) k := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The node-feature block at point `t` is rows 5000·t … of its array. -/
theorem read1 (c : Dev nD) (t : Fin cfg0.N) (x : S5000x128.Idx) (k : S100000x128.Idx)
    (hk0 : (k 0).val = t.val * 5000 + (x 0).val) (hk1 : (k 1).val = (x 1).val) :
    (iblk0 V c 1 t : Vec Ideal S5000x128 .f32) x = (V c (Pipeline.arrRef spec0 1) : S100000x128.Idx → EReal) k := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 5000 + 1 * (x 0).val = (k 0).val; rw [e0, hk0]; omega
  | ⟨1, _⟩ => show win0_1.index t (1 : Fin 2) * 128 + 1 * (x 1).val = (k 1).val; rw [e1, hk1]; omega

/-- The reciprocal-degree block at point `t` is rows 5000·t … of the column. -/
theorem read2 (c : Dev nD) (t : Fin cfg0.N) (x : S5000x1.Idx) (k : S100000x1.Idx)
    (hk0 : (k 0).val = t.val * 5000 + (x 0).val) (hk1 : (k 1).val = (x 1).val) :
    (iblk0 V c 2 t : Vec Ideal S5000x1 .f32) x = (V c (Pipeline.arrRef spec0 2) : S100000x1.Idx → EReal) k := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 5000 + 1 * (x 0).val = (k 0).val; rw [e0, hk0]; omega
  | ⟨1, _⟩ => show win0_2.index t (1 : Fin 2) * 1 + 1 * (x 1).val = (k 1).val; rw [e1, hk1]; omega

/-- The first weight matrix is handed whole at every point. -/
theorem read3 (c : Dev nD) (t : Fin cfg0.N) (x : S128x64.Idx) :
    (iblk0 V c 3 t : Vec Ideal S128x64 .bf16) x = (V c (Pipeline.arrRef spec0 3) : S128x64.Idx → EReal) x := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 128 + 1 * (x 0).val = (x 0).val; rw [e0]; omega
  | ⟨1, _⟩ => show win0_3.index t (1 : Fin 2) * 64 + 1 * (x 1).val = (x 1).val; rw [e1]; omega

/-- The second weight matrix is handed whole at every point. -/
theorem read4 (c : Dev nD) (t : Fin cfg0.N) (x : S128x64.Idx) :
    (iblk0 V c 4 t : Vec Ideal S128x64 .bf16) x = (V c (Pipeline.arrRef spec0 4) : S128x64.Idx → EReal) x := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t (0 : Fin 2) * 128 + 1 * (x 0).val = (x 0).val; rw [e0]; omega
  | ⟨1, _⟩ => show win0_4.index t (1 : Fin 2) * 64 + 1 * (x 1).val = (x 1).val; rw [e1]; omega

/-- The bias row is handed whole at every point. -/
theorem read5 (c : Dev nD) (t : Fin cfg0.N) (x : S1x64.Idx) :
    (iblk0 V c 5 t : Vec Ideal S1x64 .f32) x = (V c (Pipeline.arrRef spec0 5) : S1x64.Idx → EReal) x := by
  obtain ⟨-, -, -, -, -, -, -, -, -, -, e0, e1, -⟩ := idx_facts t
  unfold iblk0
  rw [View.read_apply]
  refine congrArg (V c (Pipeline.arrRef spec0 5)) (funext fun a => Fin.ext ?_)
  match a with
  | ⟨0, _⟩ => show win0_5.index t (0 : Fin 2) * 1 + 1 * (x 0).val = (x 0).val; rw [e0]; omega
  | ⟨1, _⟩ => show win0_5.index t (1 : Fin 2) * 64 + 1 * (x 1).val = (x 1).val; rw [e1]; omega

/-- The layer of the whole arrays as the call finds them. -/
abbrev layer (c : Dev nD) : S100000x64.Idx → EReal :=
  mxuLayer relu (V c (Pipeline.arrRef spec0 0) : S100000x128.Idx → EReal) (V c (Pipeline.arrRef spec0 1) : S100000x128.Idx → EReal)
    (V c (Pipeline.arrRef spec0 2) : S100000x1.Idx → EReal) (V c (Pipeline.arrRef spec0 3) : S128x64.Idx → EReal)
    (V c (Pipeline.arrRef spec0 4) : S128x64.Idx → EReal) (V c (Pipeline.arrRef spec0 5) : S1x64.Idx → EReal)

/-- Entry `(p, q)` of the layer of point `t`'s blocks is entry `(5000·t + p, q)` of the layer of the whole arrays. -/
theorem block_layer (c : Dev nD) (t : Fin cfg0.N) (j : S5000x64.Idx) (i : S100000x64.Idx)
    (hi0 : (i 0).val = t.val * 5000 + (j 0).val) (hi1 : (i 1).val = (j 1).val) :
    mxuLayer relu (iblk0 V c 0 t : Vec Ideal S5000x128 .f32) (iblk0 V c 1 t : Vec Ideal S5000x128 .f32)
        (iblk0 V c 2 t : Vec Ideal S5000x1 .f32) (iblk0 V c 3 t : Vec Ideal S128x64 .bf16)
        (iblk0 V c 4 t : Vec Ideal S128x64 .bf16) (iblk0 V c 5 t : Vec Ideal S1x64 .f32) j
      = layer V c i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = t.val * 5000 + p.val := hi0
  have hq : q = q' := Fin.ext hi1.symm
  subst hq
  exact mxuLayer_rows relu (iblk0 V c 0 t : Vec Ideal S5000x128 .f32) (iblk0 V c 1 t : Vec Ideal S5000x128 .f32)
    (iblk0 V c 2 t : Vec Ideal S5000x1 .f32) (iblk0 V c 3 t : Vec Ideal S128x64 .bf16)
    (iblk0 V c 4 t : Vec Ideal S128x64 .bf16) (iblk0 V c 5 t : Vec Ideal S1x64 .f32)
    (V c (Pipeline.arrRef spec0 0) : S100000x128.Idx → EReal) (V c (Pipeline.arrRef spec0 1) : S100000x128.Idx → EReal)
    (V c (Pipeline.arrRef spec0 2) : S100000x1.Idx → EReal) (V c (Pipeline.arrRef spec0 3) : S128x64.Idx → EReal)
    (V c (Pipeline.arrRef spec0 4) : S128x64.Idx → EReal) (V c (Pipeline.arrRef spec0 5) : S1x64.Idx → EReal) p r q
    (fun k => read0 V c t (ix2 p k) (ix2 r k) hr rfl) (fun k => read1 V c t (ix2 p k) (ix2 r k) hr rfl)
    (read2 V c t (ix2 p (0 : Fin 1)) (ix2 r (0 : Fin 1)) hr rfl)
    (fun k => read3 V c t (ix2 k q)) (fun k => read4 V c t (ix2 k q)) (read5 V c t (ix2 (0 : Fin 1) q))

/-- WHAT POINT `t` WRITES BACK is its block of the layer of the whole arrays. -/
theorem flushed_eq (c : Dev nD) (t : Fin cfg0.N) :
    (dat0 V c).flushed 6 t = ((cfg0.win 6).blk t).view.read (Elt Ideal) (layer V c) := by
  obtain ⟨-, -, -, -, -, -, -, -, -, -, -, -, e0, e1⟩ := idx_facts t
  show (cfg0.win 6).cut (grid0.coords t) ((dat0 V c).after 6 t) = _
  rw [after0_6, out_eq]
  funext j
  rw [View.read_apply]
  refine block_layer V c t j _ ?_ ?_
  · show win0_6.index t (0 : Fin 2) * 5000 + 1 * (j 0).val = t.val * 5000 + (j 0).val; rw [e0]; omega
  · show win0_6.index t (1 : Fin 2) * 64 + 1 * (j 1).val = (j 1).val; rw [e1]; omega

/-- Every node's row lies in the block of the point `row / 5000`. -/
theorem cover (i : S100000x64.Idx) :
    ∃ t : Fin cfg0.N, (cfg0.win 6).flush t = true ∧ i ∈ ((cfg0.win 6).blk t).view.set := by
  have h0 : (i 0).val < 100000 := (i 0).isLt
  have h1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts t
  refine ⟨t, flush0_6 t, ?_⟩
  show i ∈ ((View.whole main_v28).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

/-- THE ARRAY THE CALL WRITES is the layer of the arrays it finds. -/
theorem array_eq (c : Dev nD) : (dat0 V c).arrAt 6 cfg0.N = layer V c :=
  (dat0 V c).arrAt_eq_of_cover 6 (layer V c) (fun t _ => flushed_eq V c t) cover

end Reads

end Cert.KernelIdeal.Region0

end
-- ==== Proof.Region1.lean ====
/-
  The second pallas_call, read as a value: the array it writes is the matrix unit's form of the layer (no activation)
  applied to the six arrays it is handed, whatever those arrays hold when the call is entered.

  The grid has 20 points; point t handles the 5000 nodes 5000·t … 5000·t + 4999.  Its blocks of the neighbour sum, of
  the node features and of the reciprocal-degree column are those rows of the whole arrays; the two weight matrices
  and the bias row are handed whole.  The body's one store writes the layer of the blocks, and a layer is row-local,
  so what point t writes back is rows 5000·t … of the layer of the whole arrays.  The 20 blocks tile the result.
-/
import proofs.«140511_j28621662060925_2_alg».proof.Proof.Gen.KernelIdeal.Frame
import proofs.«140511_j28621662060925_2_alg».proof.Proof.LibSageLayer
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense Cert.Lib.SageLayer

theorem hz : (![0, 0] : Fin 2 → Nat) = fun _ => 0 := funext fun a => by fin_cases a <;> rfl

/-- The body's arithmetic on a block of 5000 nodes is the matrix unit's form of the layer on that block:
    `v0` the reciprocal-degree column, `v2` the neighbour sums, `v7` the nodes' features, `v9`, `v11` the weights,
    `v16` the bias row. -/
theorem pay_eq (v0 : Vec Ideal S5000x1 .f32) (v2 v7 : Vec Ideal S5000x64 .f32) (v9 v11 : Vec Ideal S64x128 .bf16)
    (v16 : Vec Ideal S1x128 .f32) :
    k1_pay1 v0 v2 v7 v9 v11 v16 = mxuLayer id v2 v7 v0 v9 v11 v16 := by
  funext i
  obtain ⟨p, q, rfl⟩ : ∃ (p : Fin 5000) (q : Fin 128), i = ix2 p q := ⟨i 0, i 1, eq_ix2 i⟩
  rw [mxuLayer_ix2]
  unfold k1_pay1
  simp only [shapeCast_self]
  show (matmul (F := Ideal) dot_S5000x64_S64x128_S5000x128_1_0_0_1_n_n none
          (truncf (F := Ideal) .bf16 (mulf (F := Ideal) v2 (broadcastTo S5000x64 v0 broadcasts_S5000x1_S5000x64)) bitsLt_bf16_f32) v9
          (constant (F := Ideal) S5000x128 .f32 0x00000000#32) (ix2 p q)
        + matmul (F := Ideal) dot_S5000x64_S64x128_S5000x128_1_0_0_1_n_n none (truncf (F := Ideal) .bf16 v7 bitsLt_bf16_f32) v11
          (constant (F := Ideal) S5000x128 .f32 0x00000000#32) (ix2 p q))
      + broadcastTo S5000x128 v16 broadcasts_S1x128_S5000x128 (ix2 p q) = _
  rw [matmul_zero_at dot_S5000x64_S64x128_S5000x128_1_0_0_1_n_n rfl rfl rfl rfl rfl rfl,
    matmul_zero_at dot_S5000x64_S64x128_S5000x128_1_0_0_1_n_n rfl rfl rfl rfl rfl rfl,
    broadcastTo_1b_ab_apply]
  have e1 : rowDot (truncf (F := Ideal) .bf16 (mulf (F := Ideal) v2 (broadcastTo S5000x64 v0 broadcasts_S5000x1_S5000x64)) bitsLt_bf16_f32) v9 p q
      = rowDot (scaled v2 v0) v9 p q :=
    Finset.sum_congr rfl fun k _ => by
      show v2 (ix2 p k) * broadcastTo S5000x64 v0 broadcasts_S5000x1_S5000x64 (ix2 p k) * v9 (ix2 k q)
        = v2 (ix2 p k) * v0 (ix2 p (0 : Fin 1)) * v9 (ix2 k q)
      rw [Cert.Lib.Keepdims.broadcastTo_a1_ab_apply]
  rw [e1]
  rfl

/-- What the body leaves in the output window's buffer is the layer of the input windows' blocks. -/
theorem out_eq (x0 x1 : Vec Ideal S5000x64 .f32) (x2 : Vec Ideal S5000x1 .f32) (x3 x4 : Vec Ideal S64x128 .bf16)
    (x5 : Vec Ideal S1x128 .f32) :
    out1_6 x0 x1 x2 x3 x4 x5 = mxuLayer id x0 x1 x2 x3 x4 x5 := by
  unfold out1_6
  rw [View.canon_unit_zero hz]
  simp only [View.ld_unit_zero (S := S5000x64) hz, View.ld_unit_zero (S := S5000x1) hz,
    View.ld_unit_zero (S := S64x128) hz, View.ld_unit_zero (S := S1x128) hz]
  exact pay_eq x2 x0 x1 x3 x4 x5

/-- The printed index maps over the grid: the three node-indexed inputs and the output move with the point along the
    rows, the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Reads

variable (V : (c : Dev nD) → (b : Ref sig .tc) → Buf (Elt Ideal) ((c : Thread nD τ).loc b))

/-- The neighbour-sum block at point `t` is rows 5000·t … of its array. -/
theorem read0 (c : Dev nD) (t : Fin cfg1.N) (x : S5000x64.Idx) (k : S100000x64.Idx)
    (hk0 : (k 0).val = t.val * 5000 + (x 0).val) (hk1 : (k 1).val = (x 1).val) :
    (iblk1 V c 0 t : Vec Ideal S5000x64 .f32) x = (V c (Pipeline.arrRef spec1 0) : S100000x64.Idx → EReal) k := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The node-feature block at point `t` is rows 5000·t … of its array. -/
theorem read1 (c : Dev nD) (t : Fin cfg1.N) (x : S5000x64.Idx) (k : S100000x64.Idx)
    (hk0 : (k 0).val = t.val * 5000 + (x 0).val) (hk1 : (k 1).val = (x 1).val) :
    (iblk1 V c 1 t : Vec Ideal S5000x64 .f32) x = (V c (Pipeline.arrRef spec1 1) : S100000x64.Idx → EReal) k := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 5000 + 1 * (x 0).val = (k 0).val; rw [e0, hk0]; omega
  | ⟨1, _⟩ => show win1_1.index t (1 : Fin 2) * 64 + 1 * (x 1).val = (k 1).val; rw [e1, hk1]; omega

/-- The reciprocal-degree block at point `t` is rows 5000·t … of the column. -/
theorem read2 (c : Dev nD) (t : Fin cfg1.N) (x : S5000x1.Idx) (k : S100000x1.Idx)
    (hk0 : (k 0).val = t.val * 5000 + (x 0).val) (hk1 : (k 1).val = (x 1).val) :
    (iblk1 V c 2 t : Vec Ideal S5000x1 .f32) x = (V c (Pipeline.arrRef spec1 2) : S100000x1.Idx → EReal) k := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- The first weight matrix is handed whole at every point. -/
theorem read3 (c : Dev nD) (t : Fin cfg1.N) (x : S64x128.Idx) :
    (iblk1 V c 3 t : Vec Ideal S64x128 .bf16) x = (V c (Pipeline.arrRef spec1 3) : S64x128.Idx → EReal) x := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 64 + 1 * (x 0).val = (x 0).val; rw [e0]; omega
  | ⟨1, _⟩ => show win1_3.index t (1 : Fin 2) * 128 + 1 * (x 1).val = (x 1).val; rw [e1]; omega

/-- The second weight matrix is handed whole at every point. -/
theorem read4 (c : Dev nD) (t : Fin cfg1.N) (x : S64x128.Idx) :
    (iblk1 V c 4 t : Vec Ideal S64x128 .bf16) x = (V c (Pipeline.arrRef spec1 4) : S64x128.Idx → EReal) x := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 64 + 1 * (x 0).val = (x 0).val; rw [e0]; omega
  | ⟨1, _⟩ => show win1_4.index t (1 : Fin 2) * 128 + 1 * (x 1).val = (x 1).val; rw [e1]; omega

/-- The bias row is handed whole at every point. -/
theorem read5 (c : Dev nD) (t : Fin cfg1.N) (x : S1x128.Idx) :
    (iblk1 V c 5 t : Vec Ideal S1x128 .f32) x = (V c (Pipeline.arrRef spec1 5) : S1x128.Idx → EReal) x := by
  obtain ⟨-, -, -, -, -, -, -, -, -, -, e0, e1, -⟩ := idx_facts t
  unfold iblk1
  rw [View.read_apply]
  refine congrArg (V c (Pipeline.arrRef spec1 5)) (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The layer of the whole arrays as the call finds them. -/
abbrev layer (c : Dev nD) : S100000x128.Idx → EReal :=
  mxuLayer id (V c (Pipeline.arrRef spec1 0) : S100000x64.Idx → EReal) (V c (Pipeline.arrRef spec1 1) : S100000x64.Idx → EReal)
    (V c (Pipeline.arrRef spec1 2) : S100000x1.Idx → EReal) (V c (Pipeline.arrRef spec1 3) : S64x128.Idx → EReal)
    (V c (Pipeline.arrRef spec1 4) : S64x128.Idx → EReal) (V c (Pipeline.arrRef spec1 5) : S1x128.Idx → EReal)

/-- Entry `(p, q)` of the layer of point `t`'s blocks is entry `(5000·t + p, q)` of the layer of the whole arrays. -/
theorem block_layer (c : Dev nD) (t : Fin cfg1.N) (j : S5000x128.Idx) (i : S100000x128.Idx)
    (hi0 : (i 0).val = t.val * 5000 + (j 0).val) (hi1 : (i 1).val = (j 1).val) :
    mxuLayer id (iblk1 V c 0 t : Vec Ideal S5000x64 .f32) (iblk1 V c 1 t : Vec Ideal S5000x64 .f32)
        (iblk1 V c 2 t : Vec Ideal S5000x1 .f32) (iblk1 V c 3 t : Vec Ideal S64x128 .bf16)
        (iblk1 V c 4 t : Vec Ideal S64x128 .bf16) (iblk1 V c 5 t : Vec Ideal S1x128 .f32) j
      = layer V c i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hr : r.val = t.val * 5000 + p.val := hi0
  have hq : q = q' := Fin.ext hi1.symm
  subst hq
  exact mxuLayer_rows id (iblk1 V c 0 t : Vec Ideal S5000x64 .f32) (iblk1 V c 1 t : Vec Ideal S5000x64 .f32)
    (iblk1 V c 2 t : Vec Ideal S5000x1 .f32) (iblk1 V c 3 t : Vec Ideal S64x128 .bf16)
    (iblk1 V c 4 t : Vec Ideal S64x128 .bf16) (iblk1 V c 5 t : Vec Ideal S1x128 .f32)
    (V c (Pipeline.arrRef spec1 0) : S100000x64.Idx → EReal) (V c (Pipeline.arrRef spec1 1) : S100000x64.Idx → EReal)
    (V c (Pipeline.arrRef spec1 2) : S100000x1.Idx → EReal) (V c (Pipeline.arrRef spec1 3) : S64x128.Idx → EReal)
    (V c (Pipeline.arrRef spec1 4) : S64x128.Idx → EReal) (V c (Pipeline.arrRef spec1 5) : S1x128.Idx → EReal) p r q
    (fun k => read0 V c t (ix2 p k) (ix2 r k) hr rfl) (fun k => read1 V c t (ix2 p k) (ix2 r k) hr rfl)
    (read2 V c t (ix2 p (0 : Fin 1)) (ix2 r (0 : Fin 1)) hr rfl)
    (fun k => read3 V c t (ix2 k q)) (fun k => read4 V c t (ix2 k q)) (read5 V c t (ix2 (0 : Fin 1) q))

/-- WHAT POINT `t` WRITES BACK is its block of the layer of the whole arrays. -/
theorem flushed_eq (c : Dev nD) (t : Fin cfg1.N) :
    (dat1 V c).flushed 6 t = ((cfg1.win 6).blk t).view.read (Elt Ideal) (layer V c) := by
  obtain ⟨-, -, -, -, -, -, -, -, -, -, -, -, e0, e1⟩ := idx_facts t
  show (cfg1.win 6).cut (grid1.coords t) ((dat1 V c).after 6 t) = _
  rw [after1_6, out_eq]
  funext j
  rw [View.read_apply]
  refine block_layer V c t j _ ?_ ?_
  · show win1_6.index t (0 : Fin 2) * 5000 + 1 * (j 0).val = t.val * 5000 + (j 0).val; rw [e0]; omega
  · show win1_6.index t (1 : Fin 2) * 128 + 1 * (j 1).val = (j 1).val; rw [e1]; omega

/-- Every node's row lies in the block of the point `row / 5000`. -/
theorem cover (i : S100000x128.Idx) :
    ∃ t : Fin cfg1.N, (cfg1.win 6).flush t = true ∧ i ∈ ((cfg1.win 6).blk t).view.set := by
  have h0 : (i 0).val < 100000 := (i 0).isLt
  have h1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, flush1_6 t, ?_⟩
  show i ∈ ((View.whole main_v44).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- THE ARRAY THE CALL WRITES is the layer of the arrays it finds. -/
theorem array_eq (c : Dev nD) : (dat1 V c).arrAt 6 cfg1.N = layer V c :=
  (dat1 V c).arrAt_eq_of_cover 6 (layer V c) (fun t _ => flushed_eq V c t) cover

end Reads

end Cert.KernelIdeal.Region1

end
-- ==== Proof.Spec.lean ====
/-
  The network both programs compute, as one function of the argument arrays on the extended reals.

  From the edge list (row 0 the sources, row 1 the destinations) three things are formed by gathers and scatters that
  both programs spell with the same operations, and that are carried here as whole-array functions without being
  opened: the sum over each node's incoming edges of a feature array's source rows (`nbrSum128`, `nbrSum64`), and the
  number of incoming edges of each node (`degree`).  On top of them the network is two mean-aggregation layers
  (Cert.Lib.SageLayer.sage), the first followed by the positive part:
      h   = relu-layer (neighbour sums of x) x degree W_l1 W_r1 b1
      out = layer      (neighbour sums of h) h degree W_l2 W_r2 b2
-/
import proofs.«140511_j28621662060925_2_alg».proof.Proof.Gen.KernelIdeal
import proofs.«140511_j28621662060925_2_alg».proof.Proof.LibSageLayer
import Idealize.ShloMosaic.Lib.IdealHost

noncomputable section

namespace Cert.Spec

open Idealize.ShloMosaic Idealize.ShloMosaic.ValueIdx Cert.KernelIdeal Cert.KernelIdeal.Facts₀ Cert.KernelIdeal.Facts Cert.Lib.SageLayer

/-- The edge list. -/
abbrev Edges := (⟨S2x1600000, .i32⟩ : BufTy).Contents (Elt Ideal)

/-- The destination node of every edge, as a column of scatter indices. -/
def dstCol (ei : Edges) : (⟨S1600000x1, .i32⟩ : BufTy).Contents (Elt Ideal) :=
  broadcastInDim S1600000x1 ![0] bcast_S1600000_S1600000x1_0
    (shapeCast _ (extractStridedSlice S1x1600000 ![1, 0] ei slices_S2x1600000_S1x1600000_1_0) shapeCasts_S1x1600000_S1600000)

/-- The source node of every edge. -/
def srcVec (ei : Edges) : (⟨S1600000, .i32⟩ : BufTy).Contents (Elt Ideal) :=
  shapeCast _ (extractStridedSlice S1x1600000 ![0, 0] ei slices_S2x1600000_S1x1600000_0_0) shapeCasts_S1x1600000_S1600000

/-- The source node of every edge, a negative index wrapped once, as a column of gather indices. -/
def srcCol (ei : Edges) : (⟨S1600000x1, .i32⟩ : BufTy).Contents (Elt Ideal) :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32))) (srcVec ei))

/-- For every node, the sum over its incoming edges of the source node's 128 features. -/
def nbrSum128 (x : FVec Ideal S100000x128 .f32) (ei : Edges) : FVec Ideal S100000x128 .f32 :=
  Host.scatterAdd scatter_S100000x128_S1600000x1_S1600000x128_1_0_0_1
    (broadcastInDim S100000x128 ![] bcast_S_S100000x128 (constant S_ .f32 0x00000000#32)) (dstCol ei)
    (Host.gather gather_S100000x128_S1600000x1_S1600000x128_1_0_n_n_0_1_1128 x (srcCol ei))

/-- For every node, the sum over its incoming edges of the source node's 64 features. -/
def nbrSum64 (h : FVec Ideal S100000x64 .f32) (ei : Edges) : FVec Ideal S100000x64 .f32 :=
  Host.scatterAdd scatter_S100000x64_S1600000x1_S1600000x64_1_0_0_1
    (broadcastInDim S100000x64 ![] bcast_S_S100000x64 (constant S_ .f32 0x00000000#32)) (dstCol ei)
    (Host.gather gather_S100000x64_S1600000x1_S1600000x64_1_0_n_n_0_1_164 h (srcCol ei))

/-- One at every node. -/
def ones : FVec Ideal S100000 .f32 := broadcastInDim S100000 ![] bcast_S_S100000 (constant S_ .f32 0x3F800000#32)

/-- For every node, the number of its incoming edges: one added per edge at the edge's destination. -/
def degree (ei : Edges) : FVec Ideal S100000 .f32 :=
  Host.scatterAdd scatter_S100000_S1600000x1_S1600000_n_0_0_1
    (broadcastInDim S100000 ![] bcast_S_S100000 (constant S_ .f32 0x00000000#32)) (dstCol ei)
    (broadcastInDim S1600000 ![] bcast_S_S1600000 (constant S_ .f32 0x3F800000#32))

theorem ones_apply (i : S100000.Idx) : ones i = 1 := by
  unfold ones
  rw [broadcastInDim_scalar_apply]
  exact Ideal.ofBits_one_f32

/-- The hidden features: the first layer, positive part applied. -/
def hidden (x : FVec Ideal S100000x128 .f32) (ei : Edges) (wl1 wr1 : FVec Ideal S64x128 .f32) (b1 : FVec Ideal S64 .f32) :
    FVec Ideal S100000x64 .f32 :=
  sage relu (nbrSum128 x ei) x (degree ei) wl1 wr1 b1

/-- THE NETWORK. -/
def net (x : FVec Ideal S100000x128 .f32) (ei : Edges) (wl1 wr1 : FVec Ideal S64x128 .f32) (b1 : FVec Ideal S64 .f32)
    (wl2 wr2 : FVec Ideal S128x64 .f32) (b2 : FVec Ideal S128 .f32) : FVec Ideal S100000x128 .f32 :=
  sage id (nbrSum64 (hidden x ei wl1 wr1 b1) ei) (hidden x ei wl1 wr1 b1) (degree ei) wl2 wr2 b2

end Cert.Spec

end
-- ==== Proof.KernelValue.lean ====
/-
  The idealized kernel's result is the network of the argument arrays.

  Each pallas_call writes the matrix unit's form of the layer of the six arrays it finds (Region0, Region1).  Here those
  arrays are read back through the host operations that made them:
    before the first call   the neighbour sums of x, x itself, the column 1 / max(degree, 1), the two weight matrices
                            transposed and narrowed, the bias as a row — so the first call writes the hidden features;
    between the calls       the neighbour sums of the hidden features (gathered from the first call's output), that
                            output itself, the same reciprocal column (an input of the first call, left as it was),
                            the second layer's weights and bias — so the second call writes the network's output.
-/
import proofs.«140511_j28621662060925_2_alg».proof.Proof.KernelRun
import proofs.«140511_j28621662060925_2_alg».proof.Proof.Region0
import proofs.«140511_j28621662060925_2_alg».proof.Proof.Region1
import proofs.«140511_j28621662060925_2_alg».proof.Proof.Spec
import Idealize.ShloMosaic.Lib.StableHlo.Run

set_option maxRecDepth 16384

noncomputable section

namespace Cert.KernelIdeal.NetValue

open Idealize.ShloMosaic Idealize.ShloMosaic.TcCoe Idealize.SL.Sem Idealize.ShloMosaic.StableHlo
open Idealize.ShloMosaic.Pipeline (Dat)
open Cert.KernelIdeal Cert.KernelIdeal.Gen Cert.Lib.SageLayer Cert.Spec

variable (m : (ℓ : Loc nD τ sig) → Buf (Elt Ideal) ℓ) (ρ : Dev nD → PrngReg)

/-! ## The arrays the first call finds -/

theorem in0_sum (c : Dev nD) :
    (V1 m ρ c (Pipeline.arrRef spec0 0) : S100000x128.Idx → EReal) = nbrSum128 (m ((c.tc : Thread nD τ).loc main_arg0)) (m ((c.tc : Thread nD τ).loc main_arg1)) := by
  generalize hX : nbrSum128 (m ((c.tc : Thread nD τ).loc main_arg0)) (m ((c.tc : Thread nD τ).loc main_arg1)) = X
  dsimp only [V1, W1, hostOps0]; after_results_simp
  rw [← hX]
  unfold nbrSum128 dstCol srcCol srcVec
  rfl

theorem in0_x (c : Dev nD) :
    (V1 m ρ c (Pipeline.arrRef spec0 1) : S100000x128.Idx → EReal) = (m ((c.tc : Thread nD τ).loc main_arg0)) := by
  dsimp only [V1, W1, hostOps0]; after_results

theorem in0_inv (c : Dev nD) :
    (V1 m ρ c (Pipeline.arrRef spec0 2) : S100000x1.Idx → EReal)
      = shapeCast S100000x1 (Host.divf ones (maximumf (degree (m ((c.tc : Thread nD τ).loc main_arg1))) ones)) Facts₀.shapeCasts_S100000_S100000x1 := by
  generalize hX : shapeCast S100000x1 (Host.divf ones (maximumf (degree (m ((c.tc : Thread nD τ).loc main_arg1))) ones)) Facts₀.shapeCasts_S100000_S100000x1 = X
  dsimp only [V1, W1, hostOps0]; after_results_simp
  rw [← hX]
  unfold degree dstCol ones
  rfl

theorem in0_wl (c : Dev nD) :
    (V1 m ρ c (Pipeline.arrRef spec0 3) : S128x64.Idx → EReal)
      = truncf (F := Ideal) .bf16 (transpose S128x64 [1, 0] (m ((c.tc : Thread nD τ).loc main_arg2)) Facts₀.transposes_S64x128_S128x64_1_0) Facts₀.bitsLt_bf16_f32 := by
  dsimp only [V1, W1, hostOps0]; after_results

theorem in0_wr (c : Dev nD) :
    (V1 m ρ c (Pipeline.arrRef spec0 4) : S128x64.Idx → EReal)
      = truncf (F := Ideal) .bf16 (transpose S128x64 [1, 0] (m ((c.tc : Thread nD τ).loc main_arg3)) Facts₀.transposes_S64x128_S128x64_1_0) Facts₀.bitsLt_bf16_f32 := by
  dsimp only [V1, W1, hostOps0]; after_results

theorem in0_b (c : Dev nD) :
    (V1 m ρ c (Pipeline.arrRef spec0 5) : S1x64.Idx → EReal) = shapeCast S1x64 (m ((c.tc : Thread nD τ).loc main_arg4)) Facts₀.shapeCasts_S64_S1x64 := by
  generalize hX : shapeCast S1x64 (m ((c.tc : Thread nD τ).loc main_arg4)) Facts₀.shapeCasts_S64_S1x64 = X
  dsimp only [V1, W1, hostOps0]; after_results
  rw [← hX]; rfl

/-- THE FIRST CALL WRITES THE HIDDEN FEATURES. -/
theorem hidden_arr (c : Dev nD) :
    Region0.layer (V1 m ρ) c = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show mxuLayer relu (V1 m ρ c (Pipeline.arrRef spec0 0) : S100000x128.Idx → EReal) (V1 m ρ c (Pipeline.arrRef spec0 1) : S100000x128.Idx → EReal)
    (V1 m ρ c (Pipeline.arrRef spec0 2) : S100000x1.Idx → EReal) (V1 m ρ c (Pipeline.arrRef spec0 3) : S128x64.Idx → EReal)
    (V1 m ρ c (Pipeline.arrRef spec0 4) : S128x64.Idx → EReal) (V1 m ρ c (Pipeline.arrRef spec0 5) : S1x64.Idx → EReal) = _
  rw [in0_sum, in0_x, in0_inv, in0_wl, in0_wr, in0_b]
  exact mxuLayer_sage relu (nbrSum128 (m ((c.tc : Thread nD τ).loc main_arg0)) (m ((c.tc : Thread nD τ).loc main_arg1))) (m ((c.tc : Thread nD τ).loc main_arg0)) (degree (m ((c.tc : Thread nD τ).loc main_arg1))) ones ones_apply (m ((c.tc : Thread nD τ).loc main_arg2)) (m ((c.tc : Thread nD τ).loc main_arg3)) (m ((c.tc : Thread nD τ).loc main_arg4))
    Facts₀.shapeCasts_S100000_S100000x1 Facts₀.transposes_S64x128_S128x64_1_0 Facts₀.bitsLt_bf16_f32 Facts₀.shapeCasts_S64_S1x64

/-! ## What the first call leaves, at the buffers the second stretch of host operations reads -/

/-- The first call's output array. -/
theorem mid_hidden (c : Dev nD) :
    (W2 m ρ c (Proc.devRef .tc main_v28) : S100000x64.Idx → EReal) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 6).trans ((Region0.array_eq (V1 m ρ) c).trans (hidden_arr m ρ c))

/-- The destinations of the edges, untouched by the call. -/
theorem mid_dst (c : Dev nD) :
    (W2 m ρ c (Proc.devRef .tc main_v3) : S1600000.Idx → BitVec 32)
      = shapeCast _ (extractStridedSlice S1x1600000 ![1, 0] (m ((c.tc : Thread nD τ).loc main_arg1)) Facts₀.slices_S2x1600000_S1x1600000_1_0) Facts₀.shapeCasts_S1x1600000_S1600000 :=
  (W2_of_ne m ρ c main_v3 (by decide)).trans (by
    generalize hX : shapeCast _ (extractStridedSlice S1x1600000 ![1, 0] (m ((c.tc : Thread nD τ).loc main_arg1)) Facts₀.slices_S2x1600000_S1x1600000_1_0) Facts₀.shapeCasts_S1x1600000_S1600000 = X
    dsimp only [W1, hostOps0]; after_results
    rw [← hX]; rfl)

/-- The sources of the edges, untouched by the call. -/
theorem mid_src (c : Dev nD) :
    (W2 m ρ c (Proc.devRef .tc main_v1) : S1600000.Idx → BitVec 32) = srcVec (m ((c.tc : Thread nD τ).loc main_arg1)) :=
  (W2_of_ne m ρ c main_v1 (by decide)).trans (by
    generalize hX : srcVec (m ((c.tc : Thread nD τ).loc main_arg1)) = X
    dsimp only [W1, hostOps0]; after_results
    rw [← hX]
    unfold srcVec
    rfl)

/-- The reciprocal-degree column, an input of the call, left as it was. -/
theorem mid_inv (c : Dev nD) :
    (W2 m ρ c (Proc.devRef .tc main_v12) : S100000x1.Idx → EReal)
      = shapeCast S100000x1 (Host.divf ones (maximumf (degree (m ((c.tc : Thread nD τ).loc main_arg1))) ones)) Facts₀.shapeCasts_S100000_S100000x1 :=
  (W2_arr m ρ c 2).trans ((((dat0 (V1 m ρ) c).arrAt_in 2 rfl _).trans (A_eq0 (V1 m ρ) c 2)).trans (in0_inv m ρ c))

theorem mid_arg5 (c : Dev nD) : W2 m ρ c (Proc.devRef .tc main_arg5) = (m ((c.tc : Thread nD τ).loc main_arg5)) :=
  (W2_of_ne m ρ c main_arg5 (by decide)).trans (by dsimp only [W1, hostOps0]; after_results)
theorem mid_arg6 (c : Dev nD) : W2 m ρ c (Proc.devRef .tc main_arg6) = (m ((c.tc : Thread nD τ).loc main_arg6)) :=
  (W2_of_ne m ρ c main_arg6 (by decide)).trans (by dsimp only [W1, hostOps0]; after_results)
theorem mid_arg7 (c : Dev nD) : W2 m ρ c (Proc.devRef .tc main_arg7) = (m ((c.tc : Thread nD τ).loc main_arg7)) :=
  (W2_of_ne m ρ c main_arg7 (by decide)).trans (by dsimp only [W1, hostOps0]; after_results)

/-! ## The arrays the second call finds -/

theorem in1_sum (c : Dev nD) :
    (V3 m ρ c (Pipeline.arrRef spec1 0) : S100000x64.Idx → EReal)
      = nbrSum64 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) := by
  generalize hX : nbrSum64 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) = X
  dsimp only [V3, W3, hostOps1]; after_results_simp
  rw [mid_dst, mid_src, mid_hidden, ← hX]
  unfold nbrSum64 dstCol srcCol
  rfl

theorem in1_x (c : Dev nD) :
    (V3 m ρ c (Pipeline.arrRef spec1 1) : S100000x64.Idx → EReal) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [V3, W3, hostOps1]; after_results
  exact mid_hidden m ρ c

theorem in1_inv (c : Dev nD) :
    (V3 m ρ c (Pipeline.arrRef spec1 2) : S100000x1.Idx → EReal)
      = shapeCast S100000x1 (Host.divf ones (maximumf (degree (m ((c.tc : Thread nD τ).loc main_arg1))) ones)) Facts₀.shapeCasts_S100000_S100000x1 := by
  dsimp only [V3, W3, hostOps1]; after_results
  exact mid_inv m ρ c

theorem in1_wl (c : Dev nD) :
    (V3 m ρ c (Pipeline.arrRef spec1 3) : S64x128.Idx → EReal)
      = truncf (F := Ideal) .bf16 (transpose S64x128 [1, 0] (m ((c.tc : Thread nD τ).loc main_arg5)) Facts₀.transposes_S128x64_S64x128_1_0) Facts₀.bitsLt_bf16_f32 := by
  dsimp only [V3, W3, hostOps1]; after_results
  rw [mid_arg5]

theorem in1_wr (c : Dev nD) :
    (V3 m ρ c (Pipeline.arrRef spec1 4) : S64x128.Idx → EReal)
      = truncf (F := Ideal) .bf16 (transpose S64x128 [1, 0] (m ((c.tc : Thread nD τ).loc main_arg6)) Facts₀.transposes_S128x64_S64x128_1_0) Facts₀.bitsLt_bf16_f32 := by
  dsimp only [V3, W3, hostOps1]; after_results
  rw [mid_arg6]

theorem in1_b (c : Dev nD) :
    (V3 m ρ c (Pipeline.arrRef spec1 5) : S1x128.Idx → EReal) = shapeCast S1x128 (m ((c.tc : Thread nD τ).loc main_arg7)) Facts₀.shapeCasts_S128_S1x128 := by
  generalize hX : shapeCast S1x128 (m ((c.tc : Thread nD τ).loc main_arg7)) Facts₀.shapeCasts_S128_S1x128 = X
  dsimp only [V3, W3, hostOps1]; after_results
  rw [mid_arg7, ← hX]
  rfl

/-- THE SECOND CALL WRITES THE NETWORK'S OUTPUT. -/
theorem net_arr (c : Dev nD) :
    Region1.layer (V3 m ρ) c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show mxuLayer id (V3 m ρ c (Pipeline.arrRef spec1 0) : S100000x64.Idx → EReal) (V3 m ρ c (Pipeline.arrRef spec1 1) : S100000x64.Idx → EReal)
    (V3 m ρ c (Pipeline.arrRef spec1 2) : S100000x1.Idx → EReal) (V3 m ρ c (Pipeline.arrRef spec1 3) : S64x128.Idx → EReal)
    (V3 m ρ c (Pipeline.arrRef spec1 4) : S64x128.Idx → EReal) (V3 m ρ c (Pipeline.arrRef spec1 5) : S1x128.Idx → EReal) = _
  rw [in1_sum, in1_x, in1_inv, in1_wl, in1_wr, in1_b]
  exact mxuLayer_sage id (nbrSum64 (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1))) (hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (degree (m ((c.tc : Thread nD τ).loc main_arg1))) ones ones_apply (m ((c.tc : Thread nD τ).loc main_arg5)) (m ((c.tc : Thread nD τ).loc main_arg6)) (m ((c.tc : Thread nD τ).loc main_arg7))
    Facts₀.shapeCasts_S100000_S100000x1 Facts₀.transposes_S128x64_S64x128_1_0 Facts₀.bitsLt_bf16_f32 Facts₀.shapeCasts_S128_S1x128

/-! ## The run -/

/-- Every weakly fair execution of the idealized kernel ends with the result buffer at the network of the argument
    arrays, the arguments unchanged. -/
theorem run : θ_run defs (onTc (τ := τ) (main (F := Ideal))) ⟨m, fun _ => 0, ρ⟩ (fun r => ∀ c : Dev nD,
      r.2.mem ((c.tc : Thread nD τ).loc main_v44) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans ((W4_arr m ρ c 6).trans ((Region1.array_eq (V3 m ρ) c).trans (net_arr m ρ c))), (h c).2⟩)
    (Cert.KernelIdeal.ValueRun.run m ρ)

end Cert.KernelIdeal.NetValue

end
-- ==== Proof.RefValue.lean ====
/-
  The idealized reference's result is the network of the argument arrays.

  The reference forms the neighbour sums and the degree with the same gathers and scatters as the kernel's host side
  (the same operations on the same operands: equal by unfolding), divides the neighbour sums by the clamped degree
  spread over the columns, multiplies against the transposed weights, adds the bias spread over the rows and the node's
  own product, and takes the positive part after the first layer: the host's spelling of the layer
  (Cert.Lib.SageLayer.host_sage), twice.
-/
import proofs.«140511_j28621662060925_2_alg».proof.Proof.Gen.ReferenceIdeal.Read
import proofs.«140511_j28621662060925_2_alg».proof.Proof.Spec

set_option maxRecDepth 16384

noncomputable section

namespace Cert.ReferenceIdeal.RefValue

open Idealize.ShloMosaic Idealize.ShloMosaic.ValueIdx
open Cert.ReferenceIdeal Cert.ReferenceIdeal.Facts₀ Cert.ReferenceIdeal.Facts Cert.ReferenceIdeal.Read
open Cert.Lib.SageLayer Cert.Spec

variable (x0 : (⟨S100000x128, .f32⟩ : BufTy).Contents (Elt Ideal)) (x1 : (⟨S2x1600000, .i32⟩ : BufTy).Contents (Elt Ideal))
  (x2 x3 : (⟨S64x128, .f32⟩ : BufTy).Contents (Elt Ideal)) (x4 : (⟨S64, .f32⟩ : BufTy).Contents (Elt Ideal))
  (x5 x6 : (⟨S128x64, .f32⟩ : BufTy).Contents (Elt Ideal)) (x7 : (⟨S128, .f32⟩ : BufTy).Contents (Elt Ideal))

/-! ## The shared gathers and scatters, as the reference spells them -/

/-- The reference's neighbour sums of the node features. -/
theorem sum128_eq : val_main_v13 (F := Ideal) x0 x1 = nbrSum128 x0 x1 := rfl

/-- The reference's neighbour sums of its hidden features. -/
theorem sum64_eq : val_main_v41 (F := Ideal) x0 x1 x2 x3 x4 = nbrSum64 (val_main_v31 (F := Ideal) x0 x1 x2 x3 x4) x1 := rfl

/-- The reference's degree, formed once per layer. -/
theorem degree_eq : val_main_v17 (F := Ideal) x1 = degree x1 := rfl
theorem degree_eq' : val_main_v45 (F := Ideal) x1 = degree x1 := rfl

/-- The reference's array of ones, formed once per layer. -/
theorem ones_eq : val_main_v18 (F := Ideal) = ones := rfl
theorem ones_eq' : val_main_v46 (F := Ideal) = ones := rfl

/-! ## The two layers -/

/-- The first layer before its activation, over the reference's own neighbour sums and degree. -/
theorem pre_hidden_eq :
    val_main_v30 (F := Ideal) x0 x1 x2 x3 x4
      = sage id (val_main_v13 (F := Ideal) x0 x1) x0 (val_main_v17 (F := Ideal) x1) x2 x3 x4 :=
  host_sage dot_S100000x128_S128x64_S100000x64_1_0_0_1_n_n rfl rfl rfl rfl rfl rfl (val_main_v13 (F := Ideal) x0 x1) x0
    (val_main_v17 (F := Ideal) x1) (val_main_v18 (F := Ideal)) (fun i => (congrFun ones_eq i).trans (ones_apply i))
    x2 x3 x4 bcast_S100000_S100000x1_0 bcast_S100000x1_S100000x128_0_1 transposes_S64x128_S128x64_1_0 bcast_S64_S1x64_1
    bcast_S1x64_S100000x64_0_1

/-- THE REFERENCE'S HIDDEN FEATURES: the positive part of the first layer. -/
theorem hidden_eq : val_main_v31 (F := Ideal) x0 x1 x2 x3 x4 = hidden x0 x1 x2 x3 x4 := by
  funext i
  rw [val_main_v31_apply, val_main_call0_v0_apply, val_main_call0_cst_apply, pre_hidden_eq, sum128_eq, degree_eq,
    Ideal.maximumf_def, Ideal.ofBits_def, Ideal.ofBits_zero_f32]
  exact sage_act relu (nbrSum128 x0 x1) x0 (degree x1) x2 x3 x4 i

/-- The second layer, over the reference's own hidden features, neighbour sums and degree. -/
theorem out_eq :
    val_main_v58 (F := Ideal) x0 x1 x2 x3 x4 x5 x6 x7
      = sage id (val_main_v41 (F := Ideal) x0 x1 x2 x3 x4) (val_main_v31 (F := Ideal) x0 x1 x2 x3 x4)
          (val_main_v45 (F := Ideal) x1) x5 x6 x7 :=
  host_sage dot_S100000x64_S64x128_S100000x128_1_0_0_1_n_n rfl rfl rfl rfl rfl rfl (val_main_v41 (F := Ideal) x0 x1 x2 x3 x4)
    (val_main_v31 (F := Ideal) x0 x1 x2 x3 x4) (val_main_v45 (F := Ideal) x1) (val_main_v46 (F := Ideal))
    (fun i => (congrFun ones_eq' i).trans (ones_apply i))
    x5 x6 x7 bcast_S100000_S100000x1_0 bcast_S100000x1_S100000x64_0_1 transposes_S128x64_S64x128_1_0 bcast_S128_S1x128_1
    bcast_S1x128_S100000x128_0_1

/-- THE REFERENCE'S RESULT is the network. -/
theorem result_eq : val_main_v58 (F := Ideal) x0 x1 x2 x3 x4 x5 x6 x7 = net x0 x1 x2 x3 x4 x5 x6 x7 := by
  rw [out_eq, sum64_eq, hidden_eq, degree_eq']
  rfl

end Cert.ReferenceIdeal.RefValue

end
-- ==== Proof.lean ====
/-
  Two layers of mean aggregation over a graph: the kernel against its reference, on the extended reals.

  With s(v) the sum of the features of v's in-neighbours and deg(v) their number, a layer is
      v ↦ act( (s(v) / max(deg v, 1)) · W_lᵀ + b + x(v) · W_rᵀ ),
  the first layer followed by the positive part, the second by nothing.  Both programs form s and deg with the same
  gathers and scatters of the edge list; they are carried as whole-array functions and never opened.  The kernel
  multiplies s by the reciprocal 1 / max(deg, 1) where the reference divides by max(deg, 1): the two agree on every
  extended real because max(deg, 1) ≥ 1 is not zero.  The kernel adds the two matrix products first and the bias
  last, the reference the bias in between: addition of extended reals is commutative and associative.  The kernel
  handles the nodes in 20 blocks of 5000 rows, and a layer is row-local.  No finiteness of the inputs is used.

  Modules: LibSageLayer (the layer and its two spellings), Spec (the network as one function of the arguments),
  Region0 / Region1 (what each pallas_call writes), KernelRun (the kernel's run with its result named), KernelValue
  (the kernel's result is the network), RefValue (the reference's result is the network).
-/
import proofs.«140511_j28621662060925_2_alg».proof.Defs
import proofs.«140511_j28621662060925_2_alg».proof.Proof.Gen.Kernel
import proofs.«140511_j28621662060925_2_alg».proof.Proof.Gen.Kernel.Skeleton
import proofs.«140511_j28621662060925_2_alg».proof.Proof.Gen.Kernel.Launch
import proofs.«140511_j28621662060925_2_alg».proof.Proof.Gen.Kernel.Points
import proofs.«140511_j28621662060925_2_alg».proof.Proof.Gen.Kernel.Frame
import proofs.«140511_j28621662060925_2_alg».proof.Proof.Gen.KernelIdeal
import proofs.«140511_j28621662060925_2_alg».proof.Proof.Gen.KernelIdeal.Skeleton
import proofs.«140511_j28621662060925_2_alg».proof.Proof.Gen.KernelIdeal.Launch
import proofs.«140511_j28621662060925_2_alg».proof.Proof.Gen.KernelIdeal.Points
import proofs.«140511_j28621662060925_2_alg».proof.Proof.Gen.KernelIdeal.Frame
import proofs.«140511_j28621662060925_2_alg».proof.Proof.Gen.ReferenceIdeal
import proofs.«140511_j28621662060925_2_alg».proof.Proof.Gen.ReferenceIdeal.Read
import proofs.«140511_j28621662060925_2_alg».proof.Proof.Gen.Pre_finite_inputs
import proofs.«140511_j28621662060925_2_alg».proof.Proof.KernelValue
import proofs.«140511_j28621662060925_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network of those arguments in their result. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v58_eq, Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
